-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S240x8192 : S_.BroadcastsInDim S240x8192 (![] : Fin 0 → Fin S240x8192.rank)
  reducesTo_S240x8192_S_d0_1 : S240x8192.ReducesTo [0, 1] S_
  bcast_S_S240 : S_.BroadcastsInDim S240 (![] : Fin 0 → Fin S240.rank)
  reducesTo_S240_S_d0 : S240.ReducesTo [0] S_
  bcast_S_S1x240 : S_.BroadcastsInDim S1x240 (![] : Fin 0 → Fin S1x240.rank)
  reducesTo_S1x240_S_d0_1 : S1x240.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x240 .f32) (main_arg6 : FVec F S1 .f32) (main_v13 : IVec S_ 1) (main_v16 : IVec S240 1) : IVec S_ 1 :=
  let main_c_5 : IVec S_ 1 := constantI S_ 1 1#1
  let main_v17 : IVec S_ 1 := (fun x v => Host.reduce IntOp.andi x v reducesTo_S240_S_d0 h_S_) main_v16 main_c_5
  let main_v18 : IVec S_ 1 := andi main_v13 main_v17
  let main_v19 : FVec F S1x240 .f32 := Host.absf main_arg5
  let main_cst_6 : FVec F S_ .f32 := constant S_ .f32 0x7F800000#32
  let main_v20 : FVec F S1x240 .f32 := broadcastInDim S1x240 ![] bcast_S_S1x240 main_cst_6
  let main_v21 : IVec S1x240 1 := cmpf .olt main_v19 main_v20
  let main_c_7 : IVec S_ 1 := constantI S_ 1 1#1
  let main_v22 : IVec S_ 1 := (fun x v => Host.reduce IntOp.andi x v reducesTo_S1x240_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : IVec S2x8192 32) (main_arg2 : FVec F S8192x1024 .f32) (main_arg3 : FVec F S240x8192 .f32) (main_arg4 : FVec F S240 .f32) (main_arg5 : FVec F S1x240 .f32) (main_arg6 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S240x8192 .f32 := Host.absf main_arg3
  let main_cst_2 : FVec F S_ .f32 := constant S_ .f32 0x7F800000#32
  let main_v10 : FVec F S240x8192 .f32 := broadcastInDim S240x8192 ![] bcast_S_S240x8192 main_cst_2
  let main_v11 : IVec S240x8192 1 := cmpf .olt main_v9 main_v10
  let main_c_3 : IVec S_ 1 := constantI S_ 1 1#1
  let main_v12 : IVec S_ 1 := (fun x v => Host.reduce IntOp.andi x v reducesTo_S240x8192_S_d0_1 h_S_) main_v11 main_c_3
  let main_v13 : IVec S_ 1 := andi main_v8 main_v12
  let main_v14 : FVec F S240 .f32 := Host.absf main_arg4
  let main_cst_4 : FVec F S_ .f32 := constant S_ .f32 0x7F800000#32
  let main_v15 : FVec F S240 .f32 := broadcastInDim S240 ![] bcast_S_S240 main_cst_4
  let main_v16 : IVec S240 1 := cmpf .olt main_v14 main_v15
  fn_part1 (F := F) main_arg5 main_arg6 main_v13 main_v16
-- ==== Kernel.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S240x1 : Shape := ⟨2, ![240, 1]⟩
abbrev S1x1 : Shape := ⟨2, ![1, 1]⟩
abbrev S1x1024 : Shape := ⟨2, ![1, 1024]⟩
abbrev S10000x1024 : Shape := ⟨2, ![10000, 1024]⟩
abbrev S8192x256 : Shape := ⟨2, ![8192, 256]⟩
abbrev S1x256 : Shape := ⟨2, ![1, 256]⟩
abbrev S240x256 : Shape := ⟨2, ![240, 256]⟩
abbrev S256 : Shape := ⟨1, ![256]⟩
abbrev S2000x1024 : Shape := ⟨2, ![2000, 1024]⟩

abbrev nBuf : Space → Nat
  | .hbm => 11
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x8192, .i32⟩
  | .hbm, ⟨2, _⟩ => ⟨S8192x1024, .f32⟩
  | .hbm, ⟨3, _⟩ => ⟨S240x8192, .f32⟩
  | .hbm, ⟨4, _⟩ => ⟨S240, .f32⟩
  | .hbm, ⟨5, _⟩ => ⟨S1x240, .f32⟩
  | .hbm, ⟨6, _⟩ => ⟨S1, .f32⟩
  | .hbm, ⟨7, _⟩ => ⟨S240x1, .f32⟩
  | .hbm, ⟨8, _⟩ => ⟨S1x1, .f32⟩
  | .hbm, ⟨9, _⟩ => ⟨S1x1024, .f32⟩
  | .hbm, ⟨10, _⟩ => ⟨S10000x1024, .f32⟩
  | .local _ .vmem, ⟨0, _⟩ => ⟨S240x8192, .f32⟩
  | .local _ .vmem, ⟨1, _⟩ => ⟨S240x1, .f32⟩
  | .local _ .vmem, ⟨2, _⟩ => ⟨S1x240, .f32⟩
  | .local _ .vmem, ⟨3, _⟩ => ⟨S1x1, .f32⟩
  | .local _ .vmem, ⟨4, _⟩ => ⟨S8192x256, .f32⟩
  | .local _ .vmem, ⟨5, _⟩ => ⟨S8192x256, .f32⟩
  | .local _ .vmem, ⟨6, _⟩ => ⟨S1x256, .f32⟩
  | .local _ .vmem, ⟨7, _⟩ => ⟨S1x256, .f32⟩
  | .local _ .vmem, ⟨8, _⟩ => ⟨S1x1024, .f32⟩
  | .local _ .vmem, ⟨9, _⟩ => ⟨S2000x1024, .f32⟩
  | .local _ .vmem, ⟨10, _⟩ => ⟨S2000x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S240x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2000x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S240_S240x1 : S240.ShapeCasts S240x1
  shapeCasts_S1_S1x1 : S1.ShapeCasts S1x1
  inb_S240x8192_S240x8192_0_0 : ∀ a, (![0, 0] : Fin 2 → Nat) a + S240x8192.size a ≤ S240x8192.size a
  h_S240x8192 : 0 < S240x8192.numel
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  inb_S240x1_S240x1_0_0 : ∀ a, (![0, 0] : Fin 2 → Nat) a + S240x1.size a ≤ S240x1.size a
  h_S240x1 : 0 < S240x1.numel
  shapeCasts_S240x1_S240x1 : S240x1.ShapeCasts S240x1
  broadcasts_S240x1_S240x256 : S240x1.Broadcasts S240x256
  inb_S1x240_S1x240_0_0 : ∀ a, (![0, 0] : Fin 2 → Nat) a + S1x240.size a ≤ S1x240.size a
  h_S1x240 : 0 < S1x240.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x256 : S1x1.Broadcasts S1x256
  broadcasts_S1x256_S240x256 : S1x256.Broadcasts S240x256
  reduces_S240x256_S256 : S240x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  dot_S240x8192_S8192x256_S240x256_1_0_0_1_n_n_wf : DotDims.WF S240x8192 S8192x256 S240x256 [1] [0] [0] [1] [] []
  dot_S1x240_S240x256_S1x256_1_0_0_1_n_n_wf : DotDims.WF S1x240 S240x256 S1x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S240x8192.size a ≤ S240x8192.size a
  hwx0_0 : ∀ i : grid0.Coords, EltTy.bits .f32 = 32 ∨ (Rect.block (s := S240x8192) S240x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S240x1.size a ≤ S240x1.size a
  hwx0_1 : ∀ i : grid0.Coords, EltTy.bits .f32 = 32 ∨ (Rect.block (s := S240x1) S240x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x240.size a ≤ S1x240.size a
  hwx0_2 : ∀ i : grid0.Coords, EltTy.bits .f32 = 32 ∨ (Rect.block (s := S1x240) S1x240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x1024.size a
  hwx0_4 : ∀ i : grid0.Coords, EltTy.bits .f32 = 32 ∨ (Rect.block (s := S8192x1024) S8192x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x1024.size a
  hwx0_5 : ∀ i : grid0.Coords, EltTy.bits .f32 = 32 ∨ (Rect.block (s := S1x1024) S1x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1024.size a ≤ S10000x1024.size a
  hwx1_1 : ∀ i : grid1.Coords, EltTy.bits .f32 = 32 ∨ (Rect.block (s := S10000x1024) S2000x1024.size (cc1_transform_1 i) (hinb1_1 i)).WholeWords (EltTy.packing .f32)

variable [Facts₀]

def dot_S240x8192_S8192x256_S240x256_1_0_0_1_n_n : DotDims S240x8192 S8192x256 S240x256 where
  lhsContracting := [1]
  rhsContracting := [0]
  lhsNonContracting := [0]
  rhsNonContracting := [1]
  lhsBatch := []
  rhsBatch := []
  wf := dot_S240x8192_S8192x256_S240x256_1_0_0_1_n_n_wf
def dot_S1x240_S240x256_S1x256_1_0_0_1_n_n : DotDims S1x240 S240x256 S1x256 where
  lhsContracting := [1]
  rhsContracting := [0]
  lhsNonContracting := [0]
  rhsNonContracting := [1]
  lhsBatch := []
  rhsBatch := []
  wf := dot_S1x240_S240x256_S1x256_1_0_0_1_n_n_wf

abbrev win0_0 : Pipeline.Window sig grid0 :=
  Pipeline.Window.ofSpec (Memref.whole main_arg3) S240x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S240x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8192x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x8192 : Shape := ⟨2, ![2, 8192]⟩
abbrev S8192x1024 : Shape := ⟨2, ![8192, 1024]⟩
abbrev S240x8192 : Shape := ⟨2, ![240, 8192]⟩
abbrev S240 : Shape := ⟨1, ![240]⟩
abbrev S1x240 : Shape := ⟨2, ![1, 240]⟩
abbrev S1 : Shape := ⟨1, ![1]⟩
abbrev S240x1024 : Shape := ⟨2, ![240, 1024]⟩
abbrev S240x1 : Shape := ⟨2, ![240, 1]⟩
abbrev S_ : Shape := ⟨0, ![]⟩
abbrev S1x1024 : Shape := ⟨2, ![1, 1024]⟩
abbrev S1x1 : Shape := ⟨2, ![1, 1]⟩
abbrev S1024 : Shape := ⟨1, ![1024]⟩
abbrev S10000x1024 : Shape := ⟨2, ![10000, 1024]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x8192, .i32⟩
  | .hbm, ⟨2, _⟩ => ⟨S8192x1024, .f32⟩
  | .hbm, ⟨3, _⟩ => ⟨S240x8192, .f32⟩
  | .hbm, ⟨4, _⟩ => ⟨S240, .f32⟩
  | .hbm, ⟨5, _⟩ => ⟨S1x240, .f32⟩
  | .hbm, ⟨6, _⟩ => ⟨S1, .f32⟩
  | .hbm, ⟨7, _⟩ => ⟨S240x1024, .f32⟩
  | .hbm, ⟨8, _⟩ => ⟨S240x1, .f32⟩
  | .hbm, ⟨9, _⟩ => ⟨S240x1024, .f32⟩
  | .hbm, ⟨10, _⟩ => ⟨S240x1024, .f32⟩
  | .hbm, ⟨11, _⟩ => ⟨S_, .f32⟩
  | .hbm, ⟨12, _⟩ => ⟨S240x1024, .f32⟩
  | .hbm, ⟨13, _⟩ => ⟨S240x1024, .f32⟩
  | .hbm, ⟨14, _⟩ => ⟨S1x1024, .f32⟩
  | .hbm, ⟨15, _⟩ => ⟨S1x1, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S240x1024, .f32⟩
  | .hbm, ⟨32, _⟩ => ⟨S240x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S10000x1024, .f32⟩
  | .hbm, ⟨37, _⟩ => ⟨S_, .f32⟩
  | .hbm, ⟨38, _⟩ => ⟨S10000x1024, .f32⟩
  | .hbm, ⟨39, _⟩ => ⟨S10000x1024, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S240_S240x1_0 : S240.BroadcastsInDim S240x1 (![0] : Fin 1 → Fin S240x1.rank)
  bcast_S240x1_S240x1024_0_1 : S240x1.BroadcastsInDim S240x1024 (![0, 1] : Fin 2 → Fin S240x1024.rank)
  bcast_S_S240x1024 : S_.BroadcastsInDim S240x1024 (![] : Fin 0 → Fin S240x1024.rank)
  bcast_S1_S1x1_0 : S1.BroadcastsInDim S1x1 (![0] : Fin 1 → Fin S1x1.rank)
  bcast_S1x1_S1x1024_0_1 : S1x1.BroadcastsInDim S1x1024 (![0, 1] : Fin 2 → Fin S1x1024.rank)
  shapeCasts_S1x1024_S1024 : S1x1024.ShapeCasts S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S240x1024_0_1 : S1x1024.BroadcastsInDim S240x1024 (![0, 1] : Fin 2 → Fin S240x1024.rank)
  reducesTo_S240x1024_S1024_d0 : S240x1024.ReducesTo [0] S1024
  h_S_ : 0 < S_.numel
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  dot_S240x8192_S8192x1024_S240x1024_1_0_0_1_n_n_wf : DotDims.WF S240x8192 S8192x1024 S240x1024 [1] [0] [0] [1] [] []
  dot_S1x240_S240x1024_S1x1024_1_0_0_1_n_n_wf : DotDims.WF S1x240 S240x1024 S1x1024 [1] [0] [0] [1] [] []

variable [Facts₀]

def dot_S240x8192_S8192x1024_S240x1024_1_0_0_1_n_n : DotDims S240x8192 S8192x1024 S240x1024 where
  lhsContracting := [1]
  rhsContracting := [0]
  lhsNonContracting := [0]
  rhsNonContracting := [1]
  lhsBatch := []
  rhsBatch := []
  wf := dot_S240x8192_S8192x1024_S240x1024_1_0_0_1_n_n_wf
def dot_S1x240_S240x1024_S1x1024_1_0_0_1_n_n : DotDims S1x240 S240x1024 S1x1024 where
  lhsContracting := [1]
  rhsContracting := [0]
  lhsNonContracting := [0]
  rhsNonContracting := [1]
  lhsBatch := []
  rhsBatch := []
  wf := dot_S1x240_S240x1024_S1x1024_1_0_0_1_n_n_wf

class Facts : Prop extends Facts₀ where

variable [Facts]
-- ==== Proof.ColumnValue.lean ====
/-
  One column of the edge-to-node aggregation, over the extended reals.

  Fix the 240 × 8192 weight matrix W, the 240 biases b, the 240 gate weights u, the gate bias β, and ONE column
  `col` of the 8192 × 1024 edge attributes (its 8192 entries). For that column

    edge c  = max (∑ k, W c k · col k + b c) 0                     (the 1×1 convolution, then relu)
    gate    = 1 + logistic (∑ c, u c · edge c + β)                 (the second 1×1 convolution, sigmoid, plus one)
    colSum  = ∑ c, edge c · gate                                   (the sum over the 240 channels)

  and the value every node receives for that column is colSum / 1024. One program multiplies colSum by the
  f32 constant 2⁻¹⁰ and spells the sigmoid as the one operation `logistic`; the other divides 0 + colSum by the
  f32 constant 1024 and spells the sigmoid 1 / (1 + exp (−x)). Both are the same extended real, whatever the
  entries are (finite or not): `logistic` IS that quotient, 0 + s = s, and division by the real 1024 is the product
  with its reciprocal at the infinities too.
-/
import Idealize.ShloMosaic.PureOps.Ideal
import Idealize.ShloMosaic.PureOps.Ideal.Laws
import Idealize.ShloMosaic.Lib.ValueIdx

noncomputable section

open scoped BigOperators

namespace Cert.NodeAgg

open Idealize.ShloMosaic

/-- One channel of the first convolution on one column, after relu. The zero is the f32 word `+0.0`. -/
def edgeAt (W : Fin 240 → Fin 8192 → EReal) (b : Fin 240 → EReal) (col : Fin 8192 → EReal) (c : Fin 240) : EReal :=
  max ((∑ k : Fin 8192, W c k * col k) + b c) (Ideal.ofBits .f32 0x00000000#32)

/-- The column's logit: the second convolution over the 240 channels, plus its bias. -/
def logitAt (W : Fin 240 → Fin 8192 → EReal) (b : Fin 240 → EReal) (u : Fin 240 → EReal) (β : EReal)
    (col : Fin 8192 → EReal) : EReal :=
  (∑ c : Fin 240, u c * edgeAt W b col c) + β

/-- The column's sum over the channels of edge · (1 + sigmoid(logit)), the sigmoid as the one operation. The one is
    the f32 word `1.0`. -/
def colSum (W : Fin 240 → Fin 8192 → EReal) (b : Fin 240 → EReal) (u : Fin 240 → EReal) (β : EReal)
    (col : Fin 8192 → EReal) : EReal :=
  ∑ c : Fin 240, edgeAt W b col c * (Ideal.ofBits .f32 0x3F800000#32 + Ideal.logistic (logitAt W b u β col))

/-- What every node receives for the column, as the product with the f32 word of 2⁻¹⁰. -/
def nodeValue (W : Fin 240 → Fin 8192 → EReal) (b : Fin 240 → EReal) (u : Fin 240 → EReal) (β : EReal)
    (col : Fin 8192 → EReal) : EReal :=
  colSum W b u β col * Ideal.ofBits .f32 0x3A800000#32

/-- THE RESULT as one function of the five arrays that matter — the edge attributes E [8192, 1024], the weights
    [240, 8192], the biases [240], the gate weights [1, 240], the gate bias [1] —: the entry (n, l) is the node value
    of column l of E, whatever the node n. -/
def resultOf (E : (⟨2, ![8192, 1024]⟩ : Shape).Idx → EReal) (W : (⟨2, ![240, 8192]⟩ : Shape).Idx → EReal)
    (b : (⟨1, ![240]⟩ : Shape).Idx → EReal) (u : (⟨2, ![1, 240]⟩ : Shape).Idx → EReal) (β : (⟨1, ![1]⟩ : Shape).Idx → EReal) :
    (⟨2, ![10000, 1024]⟩ : Shape).Idx → EReal := fun i =>
  nodeValue (fun c k => W (ValueIdx.ix2 c k)) (fun c => b (ValueIdx.ix1 c)) (fun c => u (ValueIdx.ix2 (0 : Fin 1) c))
    (β (ValueIdx.ix1 (0 : Fin 1))) (fun k => E (ValueIdx.ix2 k (i 1)))

/-! ## The constants -/

theorem word_one : Ideal.ofBits .f32 0x3F800000#32 = 1 := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_inv_1024 : Ideal.ofBits .f32 0x3A800000#32 = ((1 / 1024 : ℝ) : EReal) := by
  simp [Ideal.ofBits, Ideal.ieee, -EReal.coe_mul]; norm_num

/-! ## The two spellings agree -/

/-- The sigmoid spelt 1 / (1 + exp (−x)) with the f32 word `1.0` for both ones is the operation `logistic`. -/
theorem quotient_eq_logistic (x : EReal) :
    Ideal.div (Ideal.ofBits .f32 0x3F800000#32) (Ideal.ofBits .f32 0x3F800000#32 + Ideal.exp (-x)) = Ideal.logistic x := by
  rw [word_one]; rfl

/-- Dividing 0 + s by the f32 word `1024.0` is multiplying s by the f32 word of 2⁻¹⁰, for every extended real s. -/
theorem div_1024_eq_mul (s : EReal) :
    Ideal.div (Ideal.ofBits .f32 0x00000000#32 + s) (Ideal.ofBits .f32 0x44800000#32) = s * Ideal.ofBits .f32 0x3A800000#32 := by
  rw [Ideal.ofBits_zero_f32, zero_add, word_1024, word_inv_1024, Ideal.div_coe (by norm_num : (1024 : ℝ) ≠ 0)]

end Cert.NodeAgg

end
-- ==== Proof.KernelRun.lean ====
/-
  The kernel program's run with its result named.

  @main is a stretch of two host reshapes (the bias vector to a column, the gate bias to a 1 × 1 array) and two
  kernel regions. Every weakly fair execution terminates without a fault; the buffer contents at each boundary are
  a fold from the launch memory: after the reshapes, after the first region (its output row at what its four
  write-backs leave), after the second (the result at what its five write-backs leave). The state the execution ends
  in holds, in every buffer that outlives the regions, the last boundary's contents — the arguments as launched, and
  the result array at the second region's write-backs folded over the first region's.
-/
import proofs.«140338_j77884936945808_2_alg».proof.Proof.Gen.KernelIdeal.Frame

set_option maxRecDepth 16384

noncomputable section

namespace Cert.NodeAgg.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.NodeAgg.Run

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.LibColSum.lean ====
/-
  A column sum read at an index, over the extended reals.

  For an a × b matrix, a `vector.multi_reduction <add>` over the leading axis (the rows) from the neutral
  accumulator reads, at column q, the sum over the a rows p of the entries (p, q): what `jnp.sum(x, axis=0)` is,
  lane by lane, at the exact values.
-/
import Idealize.ShloMosaic.Lib.ValueIdx
import Idealize.ShloMosaic.PureOps.Ideal.Laws

noncomputable section

open scoped BigOperators

namespace Idealize.ShloMosaic.ColSum

open Idealize.ShloMosaic Idealize.ShloMosaic.ValueIdx

/-- The sum over the rows of an `[a, b]` array, at column `q`: the sum over `p` of the entries `(p, q)`. -/
theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = ∑ p : Fin a, src (ix2 p q)
  refine Finset.sum_congr rfl fun p _ => congrArg src ?_
  exact funext fun c => Fin.ext (by match c with | ⟨0, _⟩ => rfl | ⟨1, _⟩ => rfl)

end Idealize.ShloMosaic.ColSum

end
-- ==== Proof.BodyValue.lean ====
/-
  What the two kernel bodies store, read at an index.

  The first body, on one tile of 256 columns of the edge attributes, stores a 1 × 256 row: at lane q the node value
  (ColumnValue.lean) of the tile's column q — the relu'd product W · tile + b at (c, q) is the channel c of that
  column, the second product u · edge + β at (0, q) its logit, and the sum over the 240 rows of edge · (1 + logistic)
  its column sum, scaled by 2⁻¹⁰. A change of float format is the identity at the exact values, so the bf16 operands
  of the two products are the f32 ones.
  The second body stores 2000 copies of the 1 × 1024 row it loads.
-/
import proofs.«140338_j77884936945808_2_alg».proof.Proof.ColumnValue
import proofs.«140338_j77884936945808_2_alg».proof.Proof.Gen.KernelIdeal.Skeleton
import proofs.«140338_j77884936945808_2_alg».proof.Proof.LibPlainDot
import proofs.«140338_j77884936945808_2_alg».proof.Proof.LibColumn
import proofs.«140338_j77884936945808_2_alg».proof.Proof.LibColSum
import Idealize.ShloMosaic.Lib.Pipeline.Value
import Idealize.ShloMosaic.Lib.ValueLayout

noncomputable section

open scoped BigOperators

namespace Cert.NodeAgg.Body

open Cert.KernelIdeal Cert.KernelIdeal.Gen
open Idealize.ShloMosaic Idealize.ShloMosaic.ValueIdx Cert.NodeAgg

variable (v0 : Vec Ideal S240x8192 .f32) (v2 : Vec Ideal S8192x256 .f32) (v5 : Vec Ideal S240x1 .f32)
  (v12 : Vec Ideal S1x240 .f32) (v15 : Vec Ideal S1x1 .f32)

/-- The loaded blocks as plain families: the weights, the bias column, the gate weights, the gate bias, and column q
    of the tile. -/
abbrev Wb : Fin 240 → Fin 8192 → EReal := fun c k => v0 (ix2 c k)
abbrev bb : Fin 240 → EReal := fun c => v5 (ix2 c (0 : Fin 1))
abbrev ub : Fin 240 → EReal := fun c => v12 (ix2 (0 : Fin 1) c)
abbrev βb : EReal := v15 (ix2 (0 : Fin 1) (0 : Fin 1))
abbrev colb (q : Fin 256) : Fin 8192 → EReal := fun k => v2 (ix2 k q)

/-- The tile of the first convolution after relu: W · tile + b (the bias column spread over the lanes), maximum 0. -/
def edgeTile : FVec Ideal S240x256 .f32 :=
  maximumf (addf (matmul dot_S240x8192_S8192x256_S240x256_1_0_0_1_n_n none (truncf .bf16 v0 bitsLt_bf16_f32)
      (truncf .bf16 v2 bitsLt_bf16_f32) (constant (F := Ideal) S240x256 .f32 0x00000000#32))
    (broadcastTo S240x256 (shapeCast S240x1 v5 shapeCasts_S240x1_S240x1) broadcasts_S240x1_S240x256))
    (broadcast S240x256 (Scalar.ofBits (F := Ideal) .f32 0x00000000#32))

/-- The row 1 + logistic (u · edge + β) over the tile's lanes. -/
def gateRow : FVec Ideal S1x256 .f32 :=
  addf (broadcast S1x256 (Scalar.ofBits (F := Ideal) .f32 0x3F800000#32))
    (logistic (addf (matmul dot_S1x240_S240x256_S1x256_1_0_0_1_n_n none (truncf .bf16 v12 bitsLt_bf16_f32)
        (truncf .bf16 (edgeTile v0 v2 v5) bitsLt_bf16_f32) (constant (F := Ideal) S1x256 .f32 0x00000000#32))
      (broadcastTo S1x256 (shapeCast S1x1 v15 shapeCasts_S1x1_S1x1) broadcasts_S1x1_S1x256)))

/-- The stored row is the sum over the rows of edge · gate, as one row, times the constant. -/
theorem pay_eq : k0_pay1 v0 v2 v5 v12 v15
    = mulf (shapeCast S1x256 (multiReduction .add [0] S256 (mulf (edgeTile v0 v2 v5)
          (broadcastTo S240x256 (gateRow v0 v2 v5 v12 v15) broadcasts_S1x256_S240x256)) 0x00000000#32 reduces_S240x256_S256 (.inl rfl) rfl)
        shapeCasts_S256_S1x256) (broadcast S1x256 (Scalar.ofBits (F := Ideal) .f32 0x3A800000#32)) := rfl

/-- The edge tile at (c, q) is channel c of column q. -/
theorem edgeTile_at (c : Fin 240) (q : Fin 256) :
    edgeTile v0 v2 v5 (ix2 c q) = edgeAt (Wb v0) (bb v5) (colb v2 q) c := by
  unfold edgeTile edgeAt
  show max (matmul dot_S240x8192_S8192x256_S240x256_1_0_0_1_n_n none (truncf .bf16 v0 bitsLt_bf16_f32)
        (truncf .bf16 v2 bitsLt_bf16_f32) (constant (F := Ideal) S240x256 .f32 0x00000000#32) (ix2 c q)
      + broadcastTo S240x256 (shapeCast S240x1 v5 shapeCasts_S240x1_S240x1) broadcasts_S240x1_S240x256 (ix2 c q))
      (Ideal.ofBits .f32 0x00000000#32) = _
  refine congrArg (max · (Ideal.ofBits .f32 0x00000000#32)) (congrArg₂ (· + ·) ?_ ?_)
  · exact PlainDot.matmul_zero_apply (M := 240) (K := 8192) (N := 256) none _ _ c q
  · exact (ColumnIdx.broadcastTo_a1_ab_apply (a := 240) (b := 256) _ broadcasts_S240x1_S240x256 c q).trans
      (congrFun (shapeCast_self v5 shapeCasts_S240x1_S240x1) _)

/-- The gate row at lane q is one plus the sigmoid of column q's logit. -/
theorem gateRow_at (q : Fin 256) :
    gateRow v0 v2 v5 v12 v15 (ix2 (0 : Fin 1) q)
      = Ideal.ofBits .f32 0x3F800000#32 + Ideal.logistic (logitAt (Wb v0) (bb v5) (ub v12) (βb v15) (colb v2 q)) := by
  unfold gateRow logitAt
  show Ideal.ofBits .f32 0x3F800000#32 + Ideal.logistic
      (matmul dot_S1x240_S240x256_S1x256_1_0_0_1_n_n none (truncf .bf16 v12 bitsLt_bf16_f32)
          (truncf .bf16 (edgeTile v0 v2 v5) bitsLt_bf16_f32) (constant (F := Ideal) S1x256 .f32 0x00000000#32) (ix2 (0 : Fin 1) q)
        + broadcastTo S1x256 (shapeCast S1x1 v15 shapeCasts_S1x1_S1x1) broadcasts_S1x1_S1x256 (ix2 (0 : Fin 1) q)) = _
  refine congrArg (fun z => Ideal.ofBits .f32 0x3F800000#32 + Ideal.logistic z) (congrArg₂ (· + ·) ?_ ?_)
  · refine (PlainDot.matmul_zero_apply (M := 1) (K := 240) (N := 256) none _ _ (0 : Fin 1) q).trans
      (Finset.sum_congr rfl fun c _ => ?_)
    exact congrArg (v12 (ix2 (0 : Fin 1) c) * ·) (edgeTile_at v0 v2 v5 c q)
  · exact (ColumnIdx.broadcastTo_a1_ab_apply (a := 1) (b := 256) _ broadcasts_S1x1_S1x256 (0 : Fin 1) q).trans
      (congrFun (shapeCast_self v15 shapeCasts_S1x1_S1x1) _)

/-- THE FIRST BODY'S STORED ROW at lane q: the node value of the tile's column q. -/
theorem pay_at (q : Fin 256) :
    k0_pay1 v0 v2 v5 v12 v15 (ix2 (0 : Fin 1) q) = nodeValue (Wb v0) (bb v5) (ub v12) (βb v15) (colb v2 q) := by
  rw [pay_eq]
  unfold nodeValue colSum
  show shapeCast S1x256 (multiReduction .add [0] S256 (mulf (edgeTile v0 v2 v5)
          (broadcastTo S240x256 (gateRow v0 v2 v5 v12 v15) broadcasts_S1x256_S240x256)) 0x00000000#32 reduces_S240x256_S256 (.inl rfl) rfl)
        shapeCasts_S256_S1x256 (ix2 (0 : Fin 1) q) * Ideal.ofBits .f32 0x3A800000#32 = _
  refine congrArg (· * Ideal.ofBits .f32 0x3A800000#32) ?_
  refine (shapeCast_a_1a_apply (a := 256) _ shapeCasts_S256_S1x256 (0 : Fin 1) q).trans ?_
  refine (ColSum.multiReduction_rows_apply (a := 240) (b := 256) _ 0x00000000#32 reduces_S240x256_S256 (.inl rfl) rfl q).trans
    (Finset.sum_congr rfl fun c _ => ?_)
  show edgeTile v0 v2 v5 (ix2 c q) * broadcastTo S240x256 (gateRow v0 v2 v5 v12 v15) broadcasts_S1x256_S240x256 (ix2 c q) = _
  rw [edgeTile_at]
  exact congrArg (edgeAt (Wb v0) (bb v5) (colb v2 q) c * ·)
    ((broadcastTo_1b_ab_apply (a := 240) (b := 256) _ broadcasts_S1x256_S240x256 c q).trans (gateRow_at v0 v2 v5 v12 v15 q))

/-- THE SECOND BODY'S STORED BLOCK at (r, l): the loaded row at l, whatever the row r of the block. -/
theorem copy_at (w : Vec Ideal S1x1024 .f32) (r : Fin 2000) (l : Fin 1024) :
    k1_pay1 w (ix2 r l) = w (ix2 (0 : Fin 1) l) := by
  unfold k1_pay1
  refine (broadcastTo_1b_ab_apply (a := 2000) (b := 1024) _ broadcasts_S1x1024_S2000x1024 r l).trans ?_
  rw [shapeCast_self, shapeCast_self]

end Cert.NodeAgg.Body

end
-- ==== Proof.RowArray.lean ====
/-
  The first region's output array: the 1 × 1024 row of node values.

  The grid has four points; point t stages the whole weight matrix, bias column, gate weights and gate bias, and
  columns 256·t … 256·t + 255 of the edge attributes, and writes back lanes 256·t … 256·t + 255 of the row. So lane
  l of the row, after the region, is the node value of column l of the edge attributes as the region found them:
  what point t leaves is block t of that one row (the body's stored row, BodyValue.lean, with each staged block read
  where it sits in its array), and the four blocks tile the row.
-/
import proofs.«140338_j77884936945808_2_alg».proof.Proof.ColumnValue
import proofs.«140338_j77884936945808_2_alg».proof.Proof.Gen.KernelIdeal.Frame
import proofs.«140338_j77884936945808_2_alg».proof.Proof.BodyValue
import Idealize.ShloMosaic.Lib.Pipeline.Value

noncomputable section

open scoped BigOperators

namespace Cert.NodeAgg.Row

open Cert.KernelIdeal Cert.KernelIdeal.Gen Idealize.ShloMosaic Idealize.ShloMosaic.TcCoe Idealize.SL.Sem
open Idealize.ShloMosaic.ValueIdx Cert.NodeAgg
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them: the weights, the bias column, the gate weights, the gate bias and
    the edge attributes. -/
abbrev Aw (c : Dev nD) : Vec Ideal S240x8192 .f32 := V c main_arg3
abbrev Ab (c : Dev nD) : Vec Ideal S240x1 .f32 := V c main_call0_v0
abbrev Au (c : Dev nD) : Vec Ideal S1x240 .f32 := V c main_arg5
abbrev Aβ (c : Dev nD) : Vec Ideal S1x1 .f32 := V c main_call0_v1
abbrev Ae (c : Dev nD) : Vec Ideal S8192x1024 .f32 := V c main_arg2

/-- The row: at lane l the node value of column l of the edge attributes. -/
def rowArr (c : Dev nD) : S1x1024.Idx → EReal := fun i =>
  nodeValue (Body.Wb (Aw V c)) (Body.bb (Ab V c)) (Body.ub (Au V c)) (Body.βb (Aβ V c)) (fun k => Ae V c (ix2 k (i 1)))

/-- The printed index maps over the grid: the four resident windows sit at block (0, 0); the edge attributes' and
    the row's block at point t is (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The weights' block at every point is the whole array. -/
theorem blk_w (c : Dev nD) (t : Fin cfg0.N) : (iblk0 V c 0 t : Vec Ideal S240x8192 .f32) = Aw V c := by
  obtain ⟨h0, h1, -⟩ := idx_facts t
  funext y
  show V c main_arg3 (((cfg0.win 0).blk t).view.emb y) = V c main_arg3 y
  refine congrArg (V c main_arg3) (funext fun a => Fin.ext ?_)
  match a with
  | ⟨0, _⟩ => show win0_0.index t (0 : Fin 2) * 240 + 1 * (y 0).val = (y 0).val; rw [h0]; omega
  | ⟨1, _⟩ => show win0_0.index t (1 : Fin 2) * 8192 + 1 * (y 1).val = (y 1).val; rw [h1]; omega

/-- The bias column's block at every point is the whole array. -/
theorem blk_b (c : Dev nD) (t : Fin cfg0.N) : (iblk0 V c 1 t : Vec Ideal S240x1 .f32) = Ab V c := by
  obtain ⟨-, -, h0, h1, -⟩ := idx_facts t
  funext y
  show V c main_call0_v0 (((cfg0.win 1).blk t).view.emb y) = V c main_call0_v0 y
  refine congrArg (V c main_call0_v0) (funext fun a => Fin.ext ?_)
  match a with
  | ⟨0, _⟩ => show win0_1.index t (0 : Fin 2) * 240 + 1 * (y 0).val = (y 0).val; rw [h0]; omega
  | ⟨1, _⟩ => show win0_1.index t (1 : Fin 2) * 1 + 1 * (y 1).val = (y 1).val; rw [h1]; omega

/-- The gate weights' block at every point is the whole array. -/
theorem blk_u (c : Dev nD) (t : Fin cfg0.N) : (iblk0 V c 2 t : Vec Ideal S1x240 .f32) = Au V c := by
  obtain ⟨-, -, -, -, h0, h1, -⟩ := idx_facts t
  funext y
  show V c main_arg5 (((cfg0.win 2).blk t).view.emb y) = V c main_arg5 y
  refine congrArg (V c main_arg5) (funext fun a => Fin.ext ?_)
  match a with
  | ⟨0, _⟩ => show win0_2.index t (0 : Fin 2) * 1 + 1 * (y 0).val = (y 0).val; rw [h0]; omega
  | ⟨1, _⟩ => show win0_2.index t (1 : Fin 2) * 240 + 1 * (y 1).val = (y 1).val; rw [h1]; omega

/-- The gate bias's block at every point is the whole array. -/
theorem blk_β (c : Dev nD) (t : Fin cfg0.N) : (iblk0 V c 3 t : Vec Ideal S1x1 .f32) = Aβ V c := by
  obtain ⟨-, -, -, -, -, -, h0, h1, -⟩ := idx_facts t
  funext y
  show V c main_call0_v1 (((cfg0.win 3).blk t).view.emb y) = V c main_call0_v1 y
  refine congrArg (V c main_call0_v1) (funext fun a => Fin.ext ?_)
  match a with
  | ⟨0, _⟩ => show win0_3.index t (0 : Fin 2) * 1 + 1 * (y 0).val = (y 0).val; rw [h0]; omega
  | ⟨1, _⟩ => show win0_3.index t (1 : Fin 2) * 1 + 1 * (y 1).val = (y 1).val; rw [h1]; omega

/-- The edge attributes' block at point t holds columns 256·t … 256·t + 255: its entry (k, q) is the array's
    entry (k, 256·t + q). -/
theorem blk_e (c : Dev nD) (t : Fin cfg0.N) (k : Fin 8192) (q : Fin 256) (l : Fin 1024) (hl : l.val = t.val * 256 + q.val) :
    (iblk0 V c 4 t : Vec Ideal S8192x256 .f32) (ix2 k q) = Ae V c (ix2 k l) := by
  obtain ⟨-, -, -, -, -, -, -, -, h0, h1, -⟩ := idx_facts t
  show V c main_arg2 (((cfg0.win 4).blk t).view.emb (ix2 k q)) = V c main_arg2 (ix2 k l)
  refine congrArg (V c main_arg2) (funext fun a => Fin.ext ?_)
  match a with
  | ⟨0, _⟩ => show win0_4.index t (0 : Fin 2) * 8192 + 1 * k.val = k.val; rw [h0]; omega
  | ⟨1, _⟩ => show win0_4.index t (1 : Fin 2) * 256 + 1 * q.val = l.val; rw [h1, hl]; omega

/-- WHAT POINT t WRITES BACK is block t of the row. -/
theorem flushed_row (c : Dev nD) (t : Fin cfg0.N) :
    (dat0 V c).flushed 5 t = ((cfg0.win 5).blk t).view.read (Elt Ideal) (rowArr V c) := by
  obtain ⟨-, -, -, -, -, -, -, -, -, -, h50, h51⟩ := idx_facts t
  have ht : t.val < 4 := lt_of_lt_of_eq t.isLt N_0
  show (cfg0.win 5).cut (grid0.coords t) ((dat0 V c).after 5 t) = _
  rw [after0_5]
  unfold out0_5
  rw [View.canon_unit_zero hz]
  simp only [View.ld_unit_zero (S := S240x8192) hz, View.ld_unit_zero (S := S8192x256) hz,
    View.ld_unit_zero (S := S240x1) hz, View.ld_unit_zero (S := S1x240) hz, View.ld_unit_zero (S := S1x1) hz]
  rw [blk_w V c t, blk_b V c t, blk_u V c t, blk_β V c t]
  refine funext fun (j : S1x256.Idx) => ?_
  obtain ⟨u, q, rfl⟩ : ∃ (u : Fin 1) (q : Fin 256), j = ix2 u q := ⟨j 0, j 1, eq_ix2 j⟩
  obtain rfl : u = 0 := Subsingleton.elim _ _
  show k0_pay1 (Aw V c) (iblk0 V c 4 t) (Ab V c) (Au V c) (Aβ V c) (ix2 (0 : Fin 1) q)
    = rowArr V c (((cfg0.win 5).blk t).view.emb (ix2 (0 : Fin 1) q))
  refine (Body.pay_at (Aw V c) (iblk0 V c 4 t) (Ab V c) (Au V c) (Aβ V c) q).trans ?_
  unfold rowArr
  refine congrArg (nodeValue (Body.Wb (Aw V c)) (Body.bb (Ab V c)) (Body.ub (Au V c)) (Body.βb (Aβ V c))) (funext fun k => ?_)
  refine (blk_e V c t k q ⟨t.val * 256 + q.val, by omega⟩ rfl).trans
    (congrArg (fun l : Fin 1024 => Ae V c (ix2 k l)) (Fin.ext ?_))
  show t.val * 256 + q.val = win0_5.index t (1 : Fin 2) * 256 + 1 * q.val
  rw [h51]; omega

/-- Every lane of the row is in the block of the point its tile belongs to. -/
theorem cover_row (i : S1x1024.Idx) :
    ∃ t : Fin cfg0.N, (cfg0.win 5).flush t = true ∧ i ∈ ((cfg0.win 5).blk t).view.set := by
  have hi0 : (i 0).val < 1 := (i 0).isLt
  have hi1 : (i 1).val < 1024 := (i 1).isLt
  have hlt : (i 1).val / 256 < cfg0.N := by rw [show cfg0.N = 4 from N_0]; omega
  obtain ⟨-, -, -, -, -, -, -, -, -, -, h50, h51⟩ := idx_facts ⟨(i 1).val / 256, hlt⟩
  refine ⟨⟨(i 1).val / 256, hlt⟩, flush0_5 _, ?_⟩
  show i ∈ ((View.whole main_call0_v2).slice (win0_5.rect ⟨(i 1).val / 256, hlt⟩)).set
  rw [View.set_slice_whole, Rect.mem_set_unit]
  intro a
  match a with
  | ⟨0, _⟩ =>
    show win0_5.index ⟨(i 1).val / 256, hlt⟩ (0 : Fin 2) * 1 ≤ (i 0).val
      ∧ (i 0).val < win0_5.index ⟨(i 1).val / 256, hlt⟩ (0 : Fin 2) * 1 + 1
    rw [h50]; omega
  | ⟨1, _⟩ =>
    show win0_5.index ⟨(i 1).val / 256, hlt⟩ (1 : Fin 2) * 256 ≤ (i 1).val
      ∧ (i 1).val < win0_5.index ⟨(i 1).val / 256, hlt⟩ (1 : Fin 2) * 256 + 256
    rw [h51]; show (i 1).val / 256 * 256 ≤ (i 1).val ∧ (i 1).val < (i 1).val / 256 * 256 + 256; omega

/-- THE ROW AFTER THE REGION: the node values of the columns of the edge attributes as the region found them. -/
theorem final_row (c : Dev nD) : (dat0 V c).arrAt 5 cfg0.N = rowArr V c :=
  (dat0 V c).arrAt_eq_of_cover 5 (rowArr V c) (fun t _ => flushed_row V c t) (cover_row)

end Cert.NodeAgg.Row

end
-- ==== Proof.NodeArray.lean ====
/-
  The second region's output array: every node's row is the row it was given.

  The grid has five points; point t stages the whole 1 × 1024 row and writes back rows 2000·t … 2000·t + 1999 of the
  10000 × 1024 result, each a copy of the staged row. So the entry (n, l) of the result, after the region, is lane l
  of the row as the region found it; the five blocks tile the result.
-/
import proofs.«140338_j77884936945808_2_alg».proof.Proof.ColumnValue
import proofs.«140338_j77884936945808_2_alg».proof.Proof.Gen.KernelIdeal.Frame
import proofs.«140338_j77884936945808_2_alg».proof.Proof.BodyValue
import Idealize.ShloMosaic.Lib.Pipeline.Value

noncomputable section

open scoped BigOperators

namespace Cert.NodeAgg.Nodes

open Cert.KernelIdeal Cert.KernelIdeal.Gen Idealize.ShloMosaic Idealize.ShloMosaic.TcCoe Idealize.SL.Sem
open Idealize.ShloMosaic.ValueIdx Cert.NodeAgg
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row the region reads, as it finds it. -/
abbrev Ar (c : Dev nD) : Vec Ideal S1x1024 .f32 := V c main_call0_v2

/-- The result: at (n, l) the row's lane l. -/
def nodeArr (c : Dev nD) : S10000x1024.Idx → EReal := fun i => Ar V c (ix2 (0 : Fin 1) (i 1))

/-- The printed index maps over the grid: the row sits at block (0, 0); the result's block at point t is (t, 0). -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0 :=
  (by decide +kernel : ∀ t : Fin grid1.N, _)

/-- WHAT POINT t WRITES BACK is block t of the result. -/
theorem flushed_nodes (c : Dev nD) (t : Fin cfg1.N) :
    (dat1 V c).flushed 1 t = ((cfg1.win 1).blk t).view.read (Elt Ideal) (nodeArr V c) := by
  obtain ⟨h00, h01, h10, h11⟩ := idx_facts t
  show (cfg1.win 1).cut (grid1.coords t) ((dat1 V c).after 1 t) = _
  rw [after1_1]
  unfold out1_1
  rw [View.canon_unit_zero hz]
  simp only [View.ld_unit_zero (S := S1x1024) hz]
  refine funext fun (j : S2000x1024.Idx) => ?_
  obtain ⟨r, l, rfl⟩ : ∃ (r : Fin 2000) (l : Fin 1024), j = ix2 r l := ⟨j 0, j 1, eq_ix2 j⟩
  show k1_pay1 (iblk1 V c 0 t) (ix2 r l) = nodeArr V c (((cfg1.win 1).blk t).view.emb (ix2 r l))
  refine (Body.copy_at (iblk1 V c 0 t) r l).trans ?_
  show V c main_call0_v2 (((cfg1.win 0).blk t).view.emb (ix2 (0 : Fin 1) l))
    = V c main_call0_v2 (ix2 (0 : Fin 1) ((((cfg1.win 1).blk t).view.emb (ix2 r l)) 1))
  refine congrArg (V c main_call0_v2) (funext fun a => Fin.ext ?_)
  match a with
  | ⟨0, _⟩ => show win1_0.index t (0 : Fin 2) * 1 + 1 * 0 = 0; rw [h00]
  | ⟨1, _⟩ =>
    show win1_0.index t (1 : Fin 2) * 1024 + 1 * l.val = win1_1.index t (1 : Fin 2) * 1024 + 1 * l.val
    rw [h01, h11]

/-- Every entry of the result is in the block of the point its row belongs to. -/
theorem cover_nodes (i : S10000x1024.Idx) :
    ∃ t : Fin cfg1.N, (cfg1.win 1).flush t = true ∧ i ∈ ((cfg1.win 1).blk t).view.set := by
  have hi0 : (i 0).val < 10000 := (i 0).isLt
  have hi1 : (i 1).val < 1024 := (i 1).isLt
  have hlt : (i 0).val / 2000 < cfg1.N := by rw [show cfg1.N = 5 from N_1]; omega
  obtain ⟨-, -, h10, h11⟩ := idx_facts ⟨(i 0).val / 2000, hlt⟩
  refine ⟨⟨(i 0).val / 2000, hlt⟩, flush1_1 _, ?_⟩
  show i ∈ ((View.whole main_v0).slice (win1_1.rect ⟨(i 0).val / 2000, hlt⟩)).set
  rw [View.set_slice_whole, Rect.mem_set_unit]
  intro a
  match a with
  | ⟨0, _⟩ =>
    show win1_1.index ⟨(i 0).val / 2000, hlt⟩ (0 : Fin 2) * 2000 ≤ (i 0).val
      ∧ (i 0).val < win1_1.index ⟨(i 0).val / 2000, hlt⟩ (0 : Fin 2) * 2000 + 2000
    rw [h10]; show (i 0).val / 2000 * 2000 ≤ (i 0).val ∧ (i 0).val < (i 0).val / 2000 * 2000 + 2000; omega
  | ⟨1, _⟩ =>
    show win1_1.index ⟨(i 0).val / 2000, hlt⟩ (1 : Fin 2) * 1024 ≤ (i 1).val
      ∧ (i 1).val < win1_1.index ⟨(i 0).val / 2000, hlt⟩ (1 : Fin 2) * 1024 + 1024
    rw [h11]; omega

/-- THE RESULT AFTER THE REGION: every node's row is the row as the region found it. -/
theorem final_nodes (c : Dev nD) : (dat1 V c).arrAt 1 cfg1.N = nodeArr V c :=
  (dat1 V c).arrAt_eq_of_cover 1 (nodeArr V c) (fun t _ => flushed_nodes V c t) (cover_nodes)

end Cert.NodeAgg.Nodes

end
-- ==== Proof.KernelValue.lean ====
/-
  The kernel program's result array is `resultOf` of its arguments.

  Read back through the boundaries: the result after the second region is, at (n, l), lane l of the row the first
  region left (NodeArray.lean); that row is, at lane l, the node value of column l of the edge attributes, computed
  from the arrays the first region found (RowArray.lean); and those are the launch arrays, but for the two the host
  reshaped first — the bias vector as a column, whose entry (c, 0) is the vector's entry c, and the gate bias as a
  1 × 1 array, whose one entry is the gate bias.
-/
import proofs.«140338_j77884936945808_2_alg».proof.Proof.ColumnValue
import proofs.«140338_j77884936945808_2_alg».proof.Proof.KernelRun
import proofs.«140338_j77884936945808_2_alg».proof.Proof.RowArray
import proofs.«140338_j77884936945808_2_alg».proof.Proof.NodeArray
import Idealize.ShloMosaic.Lib.StableHlo.Run

noncomputable section

open scoped BigOperators

namespace Cert.NodeAgg.Kernel

open Cert.KernelIdeal Cert.KernelIdeal.Gen Idealize.ShloMosaic Idealize.ShloMosaic.TcCoe Idealize.SL.Sem
open Idealize.ShloMosaic.StableHlo
open Idealize.ShloMosaic.ValueIdx Cert.NodeAgg

variable (m : (ℓ : Loc nD τ sig) → Buf (Elt Ideal) ℓ) (ρ : Dev nD → PrngReg)

/-- The launch arrays. -/
abbrev mE (c : Dev nD) : Vec Ideal S8192x1024 .f32 := m ((c.tc : Thread nD τ).loc main_arg2)
abbrev mW (c : Dev nD) : Vec Ideal S240x8192 .f32 := m ((c.tc : Thread nD τ).loc main_arg3)
abbrev mb (c : Dev nD) : Vec Ideal S240 .f32 := m ((c.tc : Thread nD τ).loc main_arg4)
abbrev mu (c : Dev nD) : Vec Ideal S1x240 .f32 := m ((c.tc : Thread nD τ).loc main_arg5)
abbrev mβ (c : Dev nD) : Vec Ideal S1 .f32 := m ((c.tc : Thread nD τ).loc main_arg6)

/-! ## The arrays the first region finds -/

theorem entry_E (c : Dev nD) : (V1 m ρ c main_arg2 : Vec Ideal S8192x1024 .f32) = mE m c := by
  dsimp only [V1, W1, W0, hostOps0]; after_results

theorem entry_W (c : Dev nD) : (V1 m ρ c main_arg3 : Vec Ideal S240x8192 .f32) = mW m c := by
  dsimp only [V1, W1, W0, hostOps0]; after_results

theorem entry_u (c : Dev nD) : (V1 m ρ c main_arg5 : Vec Ideal S1x240 .f32) = mu m c := by
  dsimp only [V1, W1, W0, hostOps0]; after_results

theorem entry_b (c : Dev nD) :
    (V1 m ρ c main_call0_v0 : Vec Ideal S240x1 .f32) = shapeCast S240x1 (mb m c) shapeCasts_S240_S240x1 := by
  dsimp only [V1, W1, W0, hostOps0]; after_results; rfl

theorem entry_β (c : Dev nD) :
    (V1 m ρ c main_call0_v1 : Vec Ideal S1x1 .f32) = shapeCast S1x1 (mβ m c) shapeCasts_S1_S1x1 := by
  dsimp only [V1, W1, W0, hostOps0]; after_results; rfl

/-! ## The result -/

/-- The row the second region finds is the row the first region left. -/
theorem row_eq (c : Dev nD) : (V2 m ρ c main_call0_v2 : Vec Ideal S1x1024 .f32) = Row.rowArr (V1 m ρ) c :=
  (W2_arr m ρ c 5).trans (Row.final_row (V1 m ρ) c)

/-- THE RESULT ARRAY after the run is `resultOf` of the launch arrays. -/
theorem result_eq (c : Dev nD) :
    (W3 m ρ c (Proc.devRef .tc main_v0) : Vec Ideal S10000x1024 .f32) = resultOf (mE m c) (mW m c) (mb m c) (mu m c) (mβ m c) := by
  refine ((W3_arr m ρ c 1).trans (Nodes.final_nodes (V2 m ρ) c)).trans ?_
  funext i
  obtain ⟨n, l, rfl⟩ : ∃ (n : Fin 10000) (l : Fin 1024), i = ix2 n l := ⟨i 0, i 1, eq_ix2 i⟩
  show (V2 m ρ c main_call0_v2 : Vec Ideal S1x1024 .f32) (ix2 (0 : Fin 1) l) = _
  rw [row_eq]
  unfold Row.rowArr resultOf
  show nodeValue (Body.Wb (V1 m ρ c main_arg3)) (Body.bb (V1 m ρ c main_call0_v0)) (Body.ub (V1 m ρ c main_arg5))
      (Body.βb (V1 m ρ c main_call0_v1)) (fun k => (V1 m ρ c main_arg2 : Vec Ideal S8192x1024 .f32) (ix2 k l)) = _
  rw [entry_W, entry_b, entry_u, entry_β, entry_E]
  have hb : Body.bb (shapeCast S240x1 (mb m c) shapeCasts_S240_S240x1) = fun ch => mb m c (ix1 ch) :=
    funext fun ch => ColumnIdx.shapeCast_a_a1_apply (a := 240) (mb m c) shapeCasts_S240_S240x1 ch (0 : Fin 1)
  have hβ : Body.βb (shapeCast S1x1 (mβ m c) shapeCasts_S1_S1x1) = mβ m c (ix1 (0 : Fin 1)) :=
    ColumnIdx.shapeCast_a_a1_apply (a := 1) (mβ m c) shapeCasts_S1_S1x1 (0 : Fin 1) (0 : Fin 1)
  rw [hb, hβ]

/-! ## The run, read -/

/-- Every weakly fair execution of the kernel program terminates, nothing faulting, with the result array at
    `resultOf` of the launch arrays and the arguments unchanged. -/
theorem run : θ_run defs (onTc (τ := τ) (main (F := Ideal))) ⟨m, fun _ => 0, ρ⟩ (fun r => ∀ c : Dev nD,
      r.2.mem ((c.tc : Thread nD τ).loc main_v0) = resultOf (mE m c) (mW m c) (mb m c) (mu m c) (mβ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Run.run_named m ρ)

end Cert.NodeAgg.Kernel

end
-- ==== Proof.ReferenceValue.lean ====
/-
  The reference program, read at an index, is the column value of ColumnValue.lean.

  Its result at (n, l) does not depend on the node n: it is the reduce over the 240 channels of
  relu(W · E + b) · (1 + 1 / (1 + exp (−logit))) at column l of the edge attributes E, started from 0, divided by
  1024. Stage by stage (the generated read-at-an-index lemmas), each operand index is identified with the pair of
  coordinates it is, and the two spellings of ColumnValue.lean are rewritten at the end.
-/
import proofs.«140338_j77884936945808_2_alg».proof.Proof.ColumnValue
import proofs.«140338_j77884936945808_2_alg».proof.Proof.Gen.ReferenceIdeal.Read
import Idealize.ShloMosaic.Lib.ValueIdx

noncomputable section

open scoped BigOperators

namespace Cert.NodeAgg.Reference

open Cert.ReferenceIdeal Cert.ReferenceIdeal.Gen Cert.ReferenceIdeal.Read Idealize.ShloMosaic Idealize.ShloMosaic.ValueIdx Cert.NodeAgg

variable (x2 : (⟨S8192x1024, .f32⟩ : BufTy).Contents (Elt Ideal)) (x3 : (⟨S240x8192, .f32⟩ : BufTy).Contents (Elt Ideal))
  (x4 : (⟨S240, .f32⟩ : BufTy).Contents (Elt Ideal)) (x5 : (⟨S1x240, .f32⟩ : BufTy).Contents (Elt Ideal))
  (x6 : (⟨S1, .f32⟩ : BufTy).Contents (Elt Ideal))

/-- The weights, biases and one column of the edge attributes, as plain families. -/
abbrev Wf : Fin 240 → Fin 8192 → EReal := fun c k => x3 (ix2 c k)
abbrev bf : Fin 240 → EReal := fun c => x4 (ix1 c)
abbrev uf : Fin 240 → EReal := fun c => x5 (ix2 (0 : Fin 1) c)
abbrev βf : EReal := x6 (ix1 (0 : Fin 1))
abbrev colf (l : Fin 1024) : Fin 8192 → EReal := fun k => x2 (ix2 k l)

/-- After relu, the entry (c, l) is channel c of the first convolution on column l. -/
theorem edge_ref (c : Fin 240) (l : Fin 1024) :
    val_main_v4 (F := Ideal) x2 x3 x4 (ix2 c l) = edgeAt (Wf x3) (bf x4) (colf x2 l) c := by
  have e0l : ∀ k : Fin 8192, lidx_main_v0 (ix2 c l) k = ix2 c k := fun k =>
    funext fun a => Fin.ext (by match a with | ⟨0, _⟩ => rfl | ⟨1, _⟩ => rfl)
  have e0r : ∀ k : Fin 8192, ridx_main_v0 (ix2 c l) k = ix2 k l := fun k =>
    funext fun a => Fin.ext (by match a with | ⟨0, _⟩ => rfl | ⟨1, _⟩ => rfl)
  have e2 : idx_main_v1 (idx_main_v2 (ix2 c l)) = ix1 c :=
    funext fun a => Fin.ext (by match a with | ⟨0, _⟩ => rfl)
  rw [val_main_v4_apply, val_main_v3_apply, val_main_v0_apply, val_main_v2_apply, val_main_v1_apply,
    val_main_call0_v0_apply, val_main_call0_cst_apply, e2]
  simp only [e0l, e0r]
  rfl

/-- The logit of column l: the second convolution over the channels, plus its bias. -/
theorem logit_ref (l : Fin 1024) :
    val_main_v8 (F := Ideal) x2 x3 x4 x5 x6 (ix2 (0 : Fin 1) l) = logitAt (Wf x3) (bf x4) (uf x5) (βf x6) (colf x2 l) := by
  have e5l : ∀ k : Fin 240, lidx_main_v5 (ix2 (0 : Fin 1) l) k = ix2 (0 : Fin 1) k := fun k =>
    funext fun a => Fin.ext (by match a with | ⟨0, _⟩ => rfl | ⟨1, _⟩ => rfl)
  have e5r : ∀ k : Fin 240, ridx_main_v5 (ix2 (0 : Fin 1) l) k = ix2 k l := fun k =>
    funext fun a => Fin.ext (by match a with | ⟨0, _⟩ => rfl | ⟨1, _⟩ => rfl)
  have e6 : idx_main_v6 (idx_main_v7 (ix2 (0 : Fin 1) l)) = ix1 (0 : Fin 1) :=
    funext fun a => Fin.ext (by match a with | ⟨0, _⟩ => rfl)
  rw [val_main_v8_apply, val_main_v5_apply, val_main_v7_apply, val_main_v6_apply, e6]
  simp only [e5l, e5r, edge_ref]
  rfl

/-- One plus the sigmoid of the logit of column l, the sigmoid spelt as a quotient. -/
theorem gate_ref (l : Fin 1024) :
    val_main_v17 (F := Ideal) x2 x3 x4 x5 x6 (ix1 l)
      = Ideal.ofBits .f32 0x3F800000#32 + Ideal.logistic (logitAt (Wf x3) (bf x4) (uf x5) (βf x6) (colf x2 l)) := by
  have e9 : idx_main_v9 (ix1 l) = ix2 (0 : Fin 1) l :=
    funext fun a => Fin.ext (by
      match a with
      | ⟨0, _⟩ => rfl
      | ⟨1, _⟩ => exact Nat.mod_eq_of_lt l.isLt)
  rw [val_main_v17_apply, val_main_v16_apply, val_main_cst_1_apply, val_main_v15_apply, val_main_v14_apply,
    val_main_cst_0_apply, val_main_v13_apply, val_main_v12_apply, val_main_cst_apply, val_main_v11_apply,
    val_main_v10_apply, val_main_v9_apply, e9, logit_ref]
  exact congrArg (Ideal.ofBits .f32 0x3F800000#32 + ·) (quotient_eq_logistic _)

/-- The reduce over the channels at column l, from its initial value 0. -/
theorem colsum_ref (l : Fin 1024) :
    val_main_v21 (F := Ideal) x2 x3 x4 x5 x6 (ix1 l)
      = Ideal.ofBits .f32 0x00000000#32 + colSum (Wf x3) (bf x4) (uf x5) (βf x6) (colf x2 l) := by
  have e21 : ∀ k : Fin 240, idx_main_v21 (ix1 l) k = ix2 k l := fun k =>
    funext fun a => Fin.ext (by match a with | ⟨0, _⟩ => rfl | ⟨1, _⟩ => rfl)
  have e19 : ∀ k : Fin 240, idx_main_v18 (idx_main_v19 (ix2 k l)) = ix1 l := fun k =>
    funext fun a => Fin.ext (by match a with | ⟨0, _⟩ => rfl)
  rw [val_main_v21_apply, val_main_cst_2_apply]
  refine congrArg (Ideal.ofBits .f32 0x00000000#32 + ·) (Finset.sum_congr rfl fun k _ => ?_)
  rw [e21, val_main_v20_apply, val_main_v19_apply, val_main_v18_apply, e19, edge_ref, gate_ref]
  rfl

/-- THE REFERENCE'S RESULT at (n, l): the node value of column l, whatever the node n. -/
theorem result_ref (n : Fin 10000) (l : Fin 1024) :
    val_main_v25 (F := Ideal) x2 x3 x4 x5 x6 (ix2 n l) = nodeValue (Wf x3) (bf x4) (uf x5) (βf x6) (colf x2 l) := by
  have e23 : idx_main_v22 (idx_main_v23 (ix2 n l)) = ix1 l :=
    funext fun a => Fin.ext (by match a with | ⟨0, _⟩ => rfl)
  rw [val_main_v25_apply, val_main_v23_apply, val_main_v22_apply, e23, colsum_ref, val_main_v24_apply,
    val_main_cst_3_apply]
  exact div_1024_eq_mul _

/-- The reference's result array is `resultOf` of its arguments. -/
theorem result_eq : val_main_v25 (F := Ideal) x2 x3 x4 x5 x6 = resultOf x2 x3 x4 x5 x6 := by
  funext i
  obtain ⟨n, l, rfl⟩ : ∃ (n : Fin 10000) (l : Fin 1024), i = ix2 n l := ⟨i 0, i 1, eq_ix2 i⟩
  exact result_ref x2 x3 x4 x5 x6 n l

end Cert.NodeAgg.Reference

end
-- ==== Proof.lean ====
/-
  The edge-to-node aggregation kernel against its jnp reference, over the extended reals.

  Both programs compute, for every node n and every column l of the edge attributes E,

      ( ∑_c relu(W · E + b)[c, l] · (1 + sigmoid(u · relu(W · E + b) + β)[l]) ) / 1024

  — a value that does not depend on n. The kernel program computes the 1 × 1024 row of these values tile by tile
  (256 columns per grid point, the two products on the matrix unit, the sigmoid as one operation, the division folded
  into a product with 2⁻¹⁰) and a second kernel copies the row to all 10000 nodes; the reference computes whole-array
  products, spells the sigmoid 1 / (1 + exp (−x)), reduces over the channels from 0, broadcasts, and divides by 1024.
  Index by index the two are the same sums of the same products in the same order, so no rearrangement of a sum is
  needed and the equality holds for all extended-real inputs; the precondition (finite inputs) is never opened.

    ColumnValue     the value of one column, and the two spellings (sigmoid; ·2⁻¹⁰ against /1024) identified
    ReferenceValue  the reference's result at an index is that value
    BodyValue       what each kernel body stores, at an index
    RowArray        the first region's output row (its four blocks tile the row)
    NodeArray       the second region's output (its five blocks tile the result)
    KernelRun       the kernel program's run, the result array named
    KernelValue     the kernel program's result is the same function of the arguments
-/
import proofs.«140338_j77884936945808_2_alg».proof.Defs
import proofs.«140338_j77884936945808_2_alg».proof.Proof.Gen.Kernel
import proofs.«140338_j77884936945808_2_alg».proof.Proof.Gen.Kernel.Skeleton
import proofs.«140338_j77884936945808_2_alg».proof.Proof.Gen.Kernel.Launch
import proofs.«140338_j77884936945808_2_alg».proof.Proof.Gen.Kernel.Points
import proofs.«140338_j77884936945808_2_alg».proof.Proof.Gen.Kernel.Frame
import proofs.«140338_j77884936945808_2_alg».proof.Proof.Gen.KernelIdeal
import proofs.«140338_j77884936945808_2_alg».proof.Proof.Gen.KernelIdeal.Skeleton
import proofs.«140338_j77884936945808_2_alg».proof.Proof.Gen.KernelIdeal.Launch
import proofs.«140338_j77884936945808_2_alg».proof.Proof.Gen.KernelIdeal.Points
import proofs.«140338_j77884936945808_2_alg».proof.Proof.Gen.KernelIdeal.Frame
import proofs.«140338_j77884936945808_2_alg».proof.Proof.Gen.ReferenceIdeal
import proofs.«140338_j77884936945808_2_alg».proof.Proof.Gen.Pre_finite_inputs
import proofs.«140338_j77884936945808_2_alg».proof.Proof.Gen.ReferenceIdeal.Run
import proofs.«140338_j77884936945808_2_alg».proof.Proof.Gen.ReferenceIdeal.Read
import proofs.«140338_j77884936945808_2_alg».proof.Proof.KernelValue
import proofs.«140338_j77884936945808_2_alg».proof.Proof.ReferenceValue
import Idealize.ShloMosaic.Adequacy
import Idealize.ShloMosaic.Init

noncomputable section

namespace Cert.Proof

open Idealize.ShloMosaic Idealize.SL.Sem Cert.Kernel

/-- The word-level kernel program runs, its arguments unchanged. -/
theorem frame_kernel : Cert.frame_Kernel := fun m ρ _ => Cert.Kernel.Gen.frame m ρ

/-- The idealized kernel program runs, its arguments unchanged. -/
theorem frame_kernelIdeal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `resultOf` of the
    arguments. -/
theorem algebraic : Cert.algebraic_KernelIdeal_ReferenceIdeal := by
  intro m ρ m' ρ' _ hagree
  refine ⟨_, Cert.NodeAgg.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨-, -, h2, h3, h4, h5, h6⟩ := hagree c
  rw [Cert.ReferenceIdeal.Read.val_main_v25_eq, Cert.NodeAgg.Reference.result_eq, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
